-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S2048 : Shape := ⟨1, ![2048]⟩
abbrev S4x2048 : Shape := ⟨2, ![4, 2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S4x8192x2048 .f32) (main_arg1 : FVec F S2048 .f32) (main_arg2 : FVec F S4x2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  main_v13
-- ==== Kernel.lean ====
abbrev S4x8192x2048 : Shape := ⟨3, ![4, 8192, 2048]⟩
abbrev S2048 : Shape := ⟨1, ![2048]⟩
abbrev S4x2048 : Shape := ⟨2, ![4, 2048]⟩
abbrev S32768x2048 : Shape := ⟨2, ![32768, 2048]⟩
abbrev S2048x4 : Shape := ⟨2, ![2048, 4]⟩
abbrev S32768x4 : Shape := ⟨2, ![32768, 4]⟩
abbrev S2048x2048 : Shape := ⟨2, ![2048, 2048]⟩
abbrev S2048x1 : Shape := ⟨2, ![2048, 1]⟩
abbrev S1x2048 : Shape := ⟨2, ![1, 2048]⟩
abbrev S4x8192x4 : Shape := ⟨3, ![4, 8192, 4]⟩

abbrev nBuf : Space → Nat
  | .hbm => 7
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x2048, .f32⟩
  | .hbm, ⟨3, _⟩ => ⟨S32768x2048, .f32⟩
  | .hbm, ⟨4, _⟩ => ⟨S2048x4, .f32⟩
  | .hbm, ⟨5, _⟩ => ⟨S32768x4, .f32⟩
  | .hbm, ⟨6, _⟩ => ⟨S4x8192x4, .f32⟩
  | .local _ .vmem, ⟨0, _⟩ => ⟨S2048x2048, .f32⟩
  | .local _ .vmem, ⟨1, _⟩ => ⟨S2048x2048, .f32⟩
  | .local _ .vmem, ⟨2, _⟩ => ⟨S2048, .f32⟩
  | .local _ .vmem, ⟨3, _⟩ => ⟨S2048x4, .f32⟩
  | .local _ .vmem, ⟨4, _⟩ => ⟨S2048x4, .f32⟩
  | .local _ .vmem, ⟨5, _⟩ => ⟨S2048x4, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x2048_S32768x2048 : S4x8192x2048.ShapeCasts S32768x2048
  transposes_S4x2048_S2048x4_1_0 : S4x2048.Transposes [1, 0] S2048x4
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S2048x2048_S2048 : S2048x2048.Reduces [1] S2048
  shapeCasts_S2048_S2048x1 : S2048.ShapeCasts S2048x1
  broadcasts_S2048x1_S2048x2048 : S2048x1.Broadcasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S2048x2048 : S1x2048.Broadcasts S2048x2048
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  shapeCasts_S32768x4_S4x8192x4 : S32768x4.ShapeCasts S4x8192x4
  dot_S2048x2048_S2048x4_S2048x4_1_0_0_1_n_n_wf : DotDims.WF S2048x2048 S2048x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S32768x2048.size a
  hwx0_0 : ∀ i : grid0.Coords, EltTy.bits .f32 = 32 ∨ (Rect.block (s := S32768x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S2048x4.size a
  hwx0_2 : ∀ i : grid0.Coords, EltTy.bits .f32 = 32 ∨ (Rect.block (s := S2048x4) S2048x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x4.size a ≤ S32768x4.size a
  hwx0_3 : ∀ i : grid0.Coords, EltTy.bits .f32 = 32 ∨ (Rect.block (s := S32768x4) S2048x4.size (cc0_transform_3 i) (hinb0_3 i)).WholeWords (EltTy.packing .f32)

variable [Facts₀]

def dot_S2048x2048_S2048x4_S2048x4_1_0_0_1_n_n : DotDims S2048x2048 S2048x4 S2048x4 where
  lhsContracting := [1]
  rhsContracting := [0]
  lhsNonContracting := [0]
  rhsNonContracting := [1]
  lhsBatch := []
  rhsBatch := []
  wf := dot_S2048x2048_S2048x4_S2048x4_1_0_0_1_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S2048 : Shape := ⟨1, ![2048]⟩
abbrev S4x2048 : Shape := ⟨2, ![4, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x4 : Shape := ⟨3, ![4, 8192, 4]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x2048, .f32⟩
  | .hbm, ⟨3, _⟩ => ⟨S4x8192x2048, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x2048, .f32⟩
  | .hbm, ⟨15, _⟩ => ⟨S4x8192x2048, .f32⟩
  | .hbm, ⟨16, _⟩ => ⟨S1x1x2048, .f32⟩
  | .hbm, ⟨17, _⟩ => ⟨S4x8192x2048, .f32⟩
  | .hbm, ⟨18, _⟩ => ⟨S4x8192x2048, .f32⟩
  | .hbm, ⟨19, _⟩ => ⟨S4x8192x4, .f32⟩
  | .hbm, ⟨20, _⟩ => ⟨S_, .f32⟩
  | .hbm, ⟨21, _⟩ => ⟨S4x8192x4, .f32⟩
  | .hbm, ⟨22, _⟩ => ⟨S4x8192x4, .f32⟩
  | .hbm, ⟨23, _⟩ => ⟨S4x8192x4, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S4x8192x2048_S4x8192_d2 : S4x8192x2048.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  bcast_S2048_S1x1x2048_2 : S2048.BroadcastsInDim S1x1x2048 (![2] : Fin 1 → Fin S1x1x2048.rank)
  bcast_S1x1x2048_S4x8192x2048_0_1_2 : S1x1x2048.BroadcastsInDim S4x8192x2048 (![0, 1, 2] : Fin 3 → Fin S4x8192x2048.rank)
  bcast_S_S4x8192x4 : S_.BroadcastsInDim S4x8192x4 (![] : Fin 0 → Fin S4x8192x4.rank)
  dot_S4x8192x2048_S4x2048_S4x8192x4_2_1_01_0_n_n_wf : DotDims.WF S4x8192x2048 S4x2048 S4x8192x4 [2] [1] [0, 1] [0] [] []

variable [Facts₀]

def dot_S4x8192x2048_S4x2048_S4x8192x4_2_1_01_0_n_n : DotDims S4x8192x2048 S4x2048 S4x8192x4 where
  lhsContracting := [2]
  rhsContracting := [1]
  lhsNonContracting := [0, 1]
  rhsNonContracting := [0]
  lhsBatch := []
  rhsBatch := []
  wf := dot_S4x8192x2048_S4x2048_S4x8192x4_2_1_01_0_n_n_wf

class Facts : Prop extends Facts₀ where

variable [Facts]
-- ==== Proof.LibRootRecip.lean ====
/-
  Multiplying by a reciprocal root against dividing by the root, on the extended reals.

  `mul_rsqrt_eq_div_sqrt`: x · rsqrt q = x / sqrt q for every x and every q above zero, q = +∞ included (both sides are
  x · 0 there); it fails at q = 0 and below. `mul_self_nonneg`: a square is never negative, at the infinities either.
  `meanSq_pos`: hence (Σ_k r_k²) / n + ε is above zero for every finite family r of extended reals, every positive
  real n and every ε above zero — what a root-mean-square normalisation takes the root of — with no finiteness asked
  of the family.
-/
import Idealize.ShloMosaic.PureOps.Ideal

noncomputable section

open scoped BigOperators

namespace Cert.LibRootRecip

open Idealize.ShloMosaic

/-- A square is never negative on the extended reals. -/
theorem mul_self_nonneg (x : EReal) : 0 ≤ x * x :=
  EReal.mul_nonneg_iff.mpr ((le_total 0 x).imp (fun h => ⟨h, h⟩) (fun h => ⟨h, h⟩))

/-- A sum of squares divided by a positive real, plus something above zero, is above zero. -/
theorem meanSq_pos {ι : Type*} (s : Finset ι) (r : ι → EReal) {n : ℝ} (hn : 0 < n) {ε : EReal} (hε : 0 < ε) :
    0 < Ideal.div (∑ k ∈ s, r k * r k) (n : EReal) + ε := by
  rw [Ideal.div_coe hn.ne']
  exact hε.trans_le (le_add_of_nonneg_left
    (EReal.mul_nonneg (Finset.sum_nonneg fun k _ => mul_self_nonneg (r k)) (EReal.coe_nonneg.mpr (one_div_pos.mpr hn).le)))

/-- Multiplying by the reciprocal root is dividing by the root, for every q above zero (q = +∞ too). -/
theorem mul_rsqrt_eq_div_sqrt (x q : EReal) (hq : 0 < q) : x * Ideal.rsqrt q = Ideal.div x (Ideal.sqrt q) := by
  induction q using EReal.rec with
  | bot => exact absurd hq (not_lt.mpr bot_le)
  | top => rw [Ideal.rsqrt_top, Ideal.sqrt_top, Ideal.div, if_neg EReal.top_ne_zero, EReal.inv_top]
  | coe r =>
    have hr : 0 < r := EReal.coe_pos.mp hq
    rw [Ideal.rsqrt_coe, Ideal.sqrt_coe, if_neg (not_lt.mpr hr.le), if_neg hr.ne', if_neg (not_lt.mpr hr.le),
      Ideal.div_coe (Real.sqrt_ne_zero'.mpr hr), one_div]

end Cert.LibRootRecip

end
-- ==== Proof.Spec.lean ====
/-
  The function both programs compute, on the extended reals. For a row x of length 2048, a weight vector w of the same
  length and a projection row v, the routed logit is

      tanh ( ( Σ_d  x_d · rsqrt( (Σ_k x_k²) / 2048 + ε ) · w_d · v_d ) · 3 ),

  the three literals (2048, ε, 3) kept as the words the programs print. The result array G holds, at (b, s, e), the
  logit of row (b, s) of the input against projection row e.

  One law joins the two programs: the kernel multiplies by the reciprocal root, the reference divides by the root.
  On the extended reals x · rsqrt q = x / sqrt q for EVERY q above zero, the infinite one included (both sides are
  x · 0 there), and the mean of squares plus ε is always above zero, whatever the row holds: a square is never
  negative, at the infinities either, and ε is a positive number. So no finiteness of the inputs is needed.
-/
import Idealize.ShloMosaic.PureOps.Ideal
import Idealize.ShloMosaic.PureOps.Ideal.Laws
import Idealize.ShloMosaic.Lib.ValueIdx
import proofs.«174033_j57784490000784_2_alg».proof.Proof.LibRootRecip

noncomputable section

open scoped BigOperators

namespace Cert.RmsRoute

open Idealize.ShloMosaic Idealize.ShloMosaic.ValueIdx

/-! ## The two literals whose values matter -/

/-- The divisor of the mean is the row length. -/
theorem lit_len : Ideal.ofBits .f32 0x45000000#32 = ((2048 : ℝ) : EReal) := by
  simp [Ideal.ofBits, Ideal.ieee, -EReal.coe_mul]; norm_num

/-- The epsilon is a positive number (its exact value never matters). -/
theorem lit_eps_pos : 0 < Ideal.ofBits .f32 0x358637BD#32 := by
  simp [Ideal.ofBits, Ideal.ieee, -EReal.coe_mul]

/-! ## The function -/

/-- The mean of a row's squares, plus epsilon. -/
def meanSq (row : Fin 2048 → EReal) : EReal :=
  Ideal.div (∑ k : Fin 2048, row k * row k) (Ideal.ofBits .f32 0x45000000#32) + Ideal.ofBits .f32 0x358637BD#32

/-- One routed logit: the normalised, weighted row against one projection row, scaled, through tanh. -/
def logit (row w v : Fin 2048 → EReal) : EReal :=
  Ideal.tanh ((∑ d : Fin 2048, row d * Ideal.rsqrt (meanSq row) * w d * v d) * Ideal.ofBits .f32 0x40400000#32)

/-- The result at coordinates (b, s, e). -/
def Gat (x : (⟨3, ![4, 8192, 2048]⟩ : Shape).Idx → EReal) (w : (⟨1, ![2048]⟩ : Shape).Idx → EReal)
    (p : (⟨2, ![4, 2048]⟩ : Shape).Idx → EReal) (b : Fin 4) (s : Fin 8192) (e : Fin 4) : EReal :=
  logit (fun d => x (ix3 b s d)) (fun d => w (ix1 d)) (fun d => p (ix2 e d))

/-- The result array. -/
def G (x : (⟨3, ![4, 8192, 2048]⟩ : Shape).Idx → EReal) (w : (⟨1, ![2048]⟩ : Shape).Idx → EReal)
    (p : (⟨2, ![4, 2048]⟩ : Shape).Idx → EReal) : (⟨3, ![4, 8192, 4]⟩ : Shape).Idx → EReal :=
  fun i => Gat x w p (i 0) (i 1) (i 2)

theorem G_ix3 (x : (⟨3, ![4, 8192, 2048]⟩ : Shape).Idx → EReal) (w : (⟨1, ![2048]⟩ : Shape).Idx → EReal)
    (p : (⟨2, ![4, 2048]⟩ : Shape).Idx → EReal) (b : Fin 4) (s : Fin 8192) (e : Fin 4) :
    G x w p (ix3 b s e) = Gat x w p b s e := rfl

/-! ## The law -/

/-- The mean of squares plus epsilon is above zero for every row. -/
theorem meanSq_pos (row : Fin 2048 → EReal) : 0 < meanSq row := by
  unfold meanSq
  rw [lit_len]
  exact Cert.LibRootRecip.meanSq_pos Finset.univ row (by norm_num) lit_eps_pos

/-- Multiplying by the reciprocal root is dividing by the root, for every q above zero (q = +∞ too). -/
theorem mul_rsqrt_eq_div_sqrt (x q : EReal) (hq : 0 < q) : x * Ideal.rsqrt q = Ideal.div x (Ideal.sqrt q) :=
  Cert.LibRootRecip.mul_rsqrt_eq_div_sqrt x q hq

end Cert.RmsRoute

end
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  What the kernel body stores, read at one entry. For the blocks the body loads — x0 (2048 rows of length 2048), the
  weight vector x1, the transposed projection x2 (2048 × 4) — the stored block at (p, e) is the routed logit of row p of
  x0 against column e of x2: the lane sum of squares is the sum over the row, the keepdims column and its broadcast
  read the row's own entry, the weight row broadcast reads the weight, and the matrix product into the zero
  accumulator is the sum over the contracted axis.
-/
import proofs.«174033_j57784490000784_2_alg».proof.Proof.Gen.KernelIdeal.Skeleton
import proofs.«174033_j57784490000784_2_alg».proof.Proof.Spec
import proofs.«174033_j57784490000784_2_alg».proof.Proof.LibColumn
import Idealize.ShloMosaic.Lib.ValueLayout
import Idealize.ShloMosaic.PureOps.Ideal.Laws

noncomputable section

open scoped BigOperators

namespace Cert.RmsRoute.Body

open Cert.KernelIdeal Cert.KernelIdeal.Gen Idealize.ShloMosaic Idealize.ShloMosaic.ValueIdx Cert.RmsRoute

/-! ## The matrix product at an entry -/

theorem lhs_row (i : S2048x4.Idx) (q : dot_S2048x2048_S2048x4_S2048x4_1_0_0_1_n_n.contr.Idx) :
    (dot_S2048x2048_S2048x4_S2048x4_1_0_0_1_n_n.lhsIdx i q 0).val = (i 0).val := by
  unfold DotDims.lhsIdx
  rw [dif_neg (show ¬(0 : Fin S2048x2048.rank) ∈ dot_S2048x2048_S2048x4_S2048x4_1_0_0_1_n_n.lhsBatch by decide),
    dif_pos (show (0 : Fin S2048x2048.rank) ∈ dot_S2048x2048_S2048x4_S2048x4_1_0_0_1_n_n.lhsNonContracting by decide)]
  rfl

theorem lhs_contr (i : S2048x4.Idx) (q : dot_S2048x2048_S2048x4_S2048x4_1_0_0_1_n_n.contr.Idx) :
    (dot_S2048x2048_S2048x4_S2048x4_1_0_0_1_n_n.lhsIdx i q 1).val = (q ⟨0, by decide⟩).val :=
  dot_S2048x2048_S2048x4_S2048x4_1_0_0_1_n_n.lhsIdx_val_of_single rfl i q

theorem rhs_contr (i : S2048x4.Idx) (q : dot_S2048x2048_S2048x4_S2048x4_1_0_0_1_n_n.contr.Idx) :
    (dot_S2048x2048_S2048x4_S2048x4_1_0_0_1_n_n.rhsIdx i q 0).val = (q ⟨0, by decide⟩).val :=
  dot_S2048x2048_S2048x4_S2048x4_1_0_0_1_n_n.rhsIdx_val_of_single rfl i q

theorem rhs_col (i : S2048x4.Idx) (q : dot_S2048x2048_S2048x4_S2048x4_1_0_0_1_n_n.contr.Idx) :
    (dot_S2048x2048_S2048x4_S2048x4_1_0_0_1_n_n.rhsIdx i q 1).val = (i 1).val := by
  unfold DotDims.rhsIdx
  rw [dif_neg (show ¬(1 : Fin S2048x4.rank) ∈ dot_S2048x2048_S2048x4_S2048x4_1_0_0_1_n_n.rhsBatch by decide),
    dif_pos (show (1 : Fin S2048x4.rank) ∈ dot_S2048x2048_S2048x4_S2048x4_1_0_0_1_n_n.rhsNonContracting by decide)]
  rfl

/-- The product of a (2048 × 2048) block with a (2048 × 4) block into the zero accumulator, at (p, e), is the sum over
    the contracted axis. -/
theorem matmul_entry (L : FVec Ideal S2048x2048 .f32) (R : FVec Ideal S2048x4 .f32) (p : Fin 2048) (e : Fin 4) :
    matmul dot_S2048x2048_S2048x4_S2048x4_1_0_0_1_n_n none L R (constant S2048x4 .f32 0x00000000#32) (ix2 p e)
      = ∑ d : Fin 2048, L (ix2 p d) * R (ix2 d e) := by
  refine (Ideal.matmul_constant_zero_apply dot_S2048x2048_S2048x4_S2048x4_1_0_0_1_n_n none L R (ix2 p e)).trans ?_
  rw [← Equiv.sum_comp (contrEquiv1 dot_S2048x2048_S2048x4_S2048x4_1_0_0_1_n_n 2048 rfl rfl).symm]
  refine Finset.sum_congr rfl fun d _ => ?_
  have hd := contrEquiv1_symm_val dot_S2048x2048_S2048x4_S2048x4_1_0_0_1_n_n 2048 rfl rfl d
  have el : dot_S2048x2048_S2048x4_S2048x4_1_0_0_1_n_n.lhsIdx (ix2 p e)
      ((contrEquiv1 dot_S2048x2048_S2048x4_S2048x4_1_0_0_1_n_n 2048 rfl rfl).symm d) = ix2 p d :=
    funext fun a => Fin.ext (by
      match a with
      | ⟨0, _⟩ => exact lhs_row _ _
      | ⟨1, _⟩ => exact (lhs_contr _ _).trans hd)
  have er : dot_S2048x2048_S2048x4_S2048x4_1_0_0_1_n_n.rhsIdx (ix2 p e)
      ((contrEquiv1 dot_S2048x2048_S2048x4_S2048x4_1_0_0_1_n_n 2048 rfl rfl).symm d) = ix2 d e :=
    funext fun a => Fin.ext (by
      match a with
      | ⟨0, _⟩ => exact (rhs_contr _ _).trans hd
      | ⟨1, _⟩ => exact rhs_col _ _)
  rw [el, er]

/-! ## The lane sum of squares at a row -/

/-- The sum along the lanes of a block's squares, at row p, is the sum over the row. -/
theorem rowSq_entry (v : FVec Ideal S2048x2048 .f32) (h : S2048x2048.Reduces [1] S2048) (hφ : FKind.Formats .f32)
    (hacc : (0x00000000#32 : BitVec 32) = FKind.add.neutral .f32 hφ) (p : Fin 2048) :
    multiReduction .add [1] S2048 (mulf v v) 0x00000000#32 h hφ hacc (ix1 p) = ∑ k : Fin 2048, v (ix2 p k) * v (ix2 p k) := by
  refine (Ideal.multiReduction_add_single (mulf v v) 0x00000000#32 h hφ hacc (ix1 p)).trans ?_
  refine Finset.sum_congr rfl fun k _ => ?_
  have e : h.lift (ix1 p) k = ix2 p k :=
    funext fun a => Fin.ext (by match a with | ⟨0, _⟩ => rfl | ⟨1, _⟩ => rfl)
  rw [e]
  rfl

/-! ## The stored block at an entry -/

/-- The body's stored value at (p, e) is the routed logit of row p against column e. -/
theorem pay_entry (x0 : Vec Ideal S2048x2048 .f32) (x1 : Vec Ideal S2048 .f32) (x2 : Vec Ideal S2048x4 .f32)
    (p : Fin 2048) (e : Fin 4) :
    k0_pay1 (F := Ideal) x0 x1 x2 (ix2 p e)
      = logit (fun d => x0 (ix2 p d)) (fun d => x1 (ix1 d)) (fun d => x2 (ix2 d e)) := by
  unfold k0_pay1 logit meanSq
  simp only [shapeCast_self]
  refine (congrArg (fun z => Ideal.tanh (z * Ideal.ofBits .f32 0x40400000#32)) (matmul_entry _ _ p e)).trans ?_
  refine congrArg (fun z => Ideal.tanh (z * Ideal.ofBits .f32 0x40400000#32)) (Finset.sum_congr rfl fun d _ => ?_)
  refine congrArg (· * x2 (ix2 d e)) ?_
  refine congrArg₂ (· * ·) (congrArg (x0 (ix2 p d) * ·) ?_) ?_
  · refine (broadcastTo_a1_ab_apply _ _ p d).trans ?_
    refine congrArg (fun z => Ideal.rsqrt (Ideal.div z (Ideal.ofBits .f32 0x45000000#32) + Ideal.ofBits .f32 0x358637BD#32)) ?_
    exact (shapeCast_a_a1_apply _ _ p 0).trans (rowSq_entry x0 _ _ _ p)
  · exact (broadcastTo_1b_ab_apply _ _ p d).trans (shapeCast_a_1a_apply x1 _ 0 d)

/-- The same at any entry of the block, the entry's own coordinates naming the row and the column. -/
theorem pay_at (x0 : Vec Ideal S2048x2048 .f32) (x1 : Vec Ideal S2048 .f32) (x2 : Vec Ideal S2048x4 .f32) (j : S2048x4.Idx) :
    k0_pay1 (F := Ideal) x0 x1 x2 j
      = logit (fun d => x0 (ix2 (j 0) d)) (fun d => x1 (ix1 d)) (fun d => x2 (ix2 d (j 1))) := by
  obtain ⟨p, e, rfl⟩ : ∃ (p : Fin 2048) (e : Fin 4), j = ix2 p e := ⟨j 0, j 1, eq_ix2 j⟩
  exact pay_entry x0 x1 x2 p e

end Cert.RmsRoute.Body

end
-- ==== Proof.LibMergeSplit.lean ====
/-
  Two row-major reshapes read at an index given by coordinates: merging the two leading axes, [a, b, c] → [n, c] with
  n = a·b, read at (p·b + q, k), is the operand at (p, q, k); splitting the leading axis, [n, c] → [a, b, c], read at
  (p, q, k), is the operand at (p·b + q, k). The extent n is whatever literal the shape carries: only the row-major
  positions are compared.
-/
import Idealize.ShloMosaic.Lib.Pipeline.Value
import Idealize.ShloMosaic.Lib.ValueIdx

namespace Cert.LibMergeSplit

open Idealize.ShloMosaic Idealize.ShloMosaic.ValueIdx

variable {α : Type}

/-- [a, b, c] → [n, c] read at (p·b + q, k). -/
theorem merge_apply {a b c n : ℕ} (x : (⟨3, ![a, b, c]⟩ : Shape).Idx → α)
    (h : (⟨3, ![a, b, c]⟩ : Shape).ShapeCasts ⟨2, ![n, c]⟩) (p : Fin a) (q : Fin b) (k : Fin c)
    (hlt : p.val * b + q.val < n) :
    shapeCast ⟨2, ![n, c]⟩ x h (ix2 ⟨p.val * b + q.val, hlt⟩ k) = x (ix3 p q k) :=
  shapeCast_apply x h _ _ (by rw [Shape.rowMajor_val_three, Shape.rowMajor_val_two]; rfl)

/-- [n, c] → [a, b, c] read at (p, q, k). -/
theorem split_apply {a b c n : ℕ} (y : (⟨2, ![n, c]⟩ : Shape).Idx → α)
    (h : (⟨2, ![n, c]⟩ : Shape).ShapeCasts ⟨3, ![a, b, c]⟩) (p : Fin a) (q : Fin b) (k : Fin c)
    (hlt : p.val * b + q.val < n) :
    shapeCast ⟨3, ![a, b, c]⟩ y h (ix3 p q k) = y (ix2 ⟨p.val * b + q.val, hlt⟩ k) :=
  shapeCast_apply y h _ _ (by rw [Shape.rowMajor_val_three, Shape.rowMajor_val_two]; rfl)

end Cert.LibMergeSplit
-- ==== Proof.KernelValue.lean ====
/-
  The kernel program's result array as one function of its arguments.

  The region's output array (32768 rows of 4) is written block by block: grid point t writes rows 2048·t … 2048·t + 2047,
  from the same rows of the flattened input, the whole weight vector and the whole transposed projection. So every
  entry (r, e) of the output array is the routed logit of row r of the flattened input against column e of the
  transposed projection, and the sixteen blocks cover the array. Around the region the host flattens the input's two
  leading axes (row b·8192 + s is row (b, s)), transposes the projection, and splits the output's rows back into
  (b, s): entry (b, s, e) of the program's result is G at (b, s, e).
-/
import proofs.«174033_j57784490000784_2_alg».proof.Proof.Gen.KernelIdeal.Frame
import proofs.«174033_j57784490000784_2_alg».proof.Proof.Payload
import proofs.«174033_j57784490000784_2_alg».proof.Proof.LibMergeSplit
import Idealize.ShloMosaic.Lib.Pipeline.Value
import Idealize.ShloMosaic.Lib.ValueLayout
import Idealize.ShloMosaic.Lib.StableHlo.Run

noncomputable section

open scoped BigOperators

namespace Cert.RmsRoute.Kernel

open Cert.KernelIdeal Cert.KernelIdeal.Gen Idealize.ShloMosaic Idealize.ShloMosaic.TcCoe Idealize.SL.Sem
open Idealize.ShloMosaic.ValueIdx Cert.RmsRoute
open Idealize.ShloMosaic.Pipeline (Dat)

variable (m : (ℓ : Loc nD τ sig) → Buf (Elt Ideal) ℓ) (ρ : Dev nD → PrngReg)

/-! ## The region's output array -/

/-- The output array of the region as a function of the three arrays the region reads: entry (r, e) is the logit of
    row r of X against column e of T. -/
def Gflat (X : S32768x2048.Idx → EReal) (w : S2048.Idx → EReal) (T : S2048x4.Idx → EReal) : S32768x4.Idx → EReal :=
  fun i => logit (fun d => X (ix2 (i 0) d)) (fun d => w (ix1 d)) (fun d => T (ix2 d (i 1)))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the input block moves with the output block along the rows; the weight vector and
    the projection stay put; the output's block index is below 16. -/
theorem idx_facts : ∀ t : Fin cfg0.N, win0_0.index t (0 : Fin 2) = win0_3.index t (0 : Fin 2)
    ∧ win0_0.index t (1 : Fin 2) = 0
    ∧ win0_1.index t (0 : Fin 1) = 0
    ∧ win0_2.index t (0 : Fin 2) = 0
    ∧ win0_2.index t (1 : Fin 2) = 0
    ∧ win0_3.index t (1 : Fin 2) = 0
    ∧ win0_3.index t (0 : Fin 2) ≤ 15 :=
  (by decide +kernel : ∀ t : Fin grid0.N, _)

/-- Every one of the sixteen row blocks is some point's. -/
theorem idx_onto : ∀ q : Fin 16, ∃ t : Fin cfg0.N, win0_3.index t = ![q.val, 0] :=
  (by decide +kernel : ∀ q : Fin 16, ∃ t : Fin grid0.N, win0_3.index t = ![q.val, 0])

/-- What point t writes back is block t of Gflat of the arrays as the region finds them. -/
theorem flushed_eq (c : Dev nD) (t : Fin cfg0.N) :
    (dats m 0 c).flushed 3 t
      = ((cfg0.win 3).blk t).view.read (Elt Ideal) (Gflat (V m c main_v0) (V m c main_arg1) (V m c main_v1)) := by
  show (cfg0.win 3).cut (grid0.coords t) ((dats m 0 c).after 3 t) = _
  rw [after0_3]
  unfold out0_3
  rw [View.canon_unit_zero hz2]
  simp only [View.ld_unit_zero (S := S2048x2048) hz2, View.ld_unit_zero (S := S2048) hz1, View.ld_unit_zero (S := S2048x4) hz2]
  obtain ⟨e0, e1, e2, e3, e4, e5, e6⟩ := idx_facts t
  funext j
  show k0_pay1 (iblk m c 0 t) (iblk m c 1 t) (iblk m c 2 t) j
    = logit (fun d => (V m c main_v0 : S32768x2048.Idx → EReal) (ix2 ((((cfg0.win 3).blk t).view.emb j) 0) d))
        (fun d => (V m c main_arg1 : S2048.Idx → EReal) (ix1 d))
        (fun d => (V m c main_v1 : S2048x4.Idx → EReal) (ix2 d ((((cfg0.win 3).blk t).view.emb j) 1)))
  refine (Body.pay_at (iblk m c 0 t) (iblk m c 1 t) (iblk m c 2 t) j).trans ?_
  refine congr (congr (congrArg logit (funext fun d => ?_)) (funext fun d => ?_)) (funext fun d => ?_)
  · show (V m c main_v0 : S32768x2048.Idx → EReal) (((cfg0.win 0).blk t).view.emb (ix2 (j 0) d)) = _
    refine congrArg (V m c main_v0 : S32768x2048.Idx → EReal) (funext fun a => Fin.ext ?_)
    match a with
    | ⟨0, _⟩ =>
      show win0_0.index t (0 : Fin 2) * 2048 + 1 * (j 0).val = win0_3.index t (0 : Fin 2) * 2048 + 1 * (j 0).val
      omega
    | ⟨1, _⟩ =>
      show win0_0.index t (1 : Fin 2) * 2048 + 1 * d.val = d.val
      omega
  · show (V m c main_arg1 : S2048.Idx → EReal) (((cfg0.win 1).blk t).view.emb (ix1 d)) = _
    refine congrArg (V m c main_arg1 : S2048.Idx → EReal) (funext fun a => Fin.ext ?_)
    match a with
    | ⟨0, _⟩ =>
      show win0_1.index t (0 : Fin 1) * 2048 + 1 * d.val = d.val
      omega
  · show (V m c main_v1 : S2048x4.Idx → EReal) (((cfg0.win 2).blk t).view.emb (ix2 d (j 1))) = _
    refine congrArg (V m c main_v1 : S2048x4.Idx → EReal) (funext fun a => Fin.ext ?_)
    match a with
    | ⟨0, _⟩ =>
      show win0_2.index t (0 : Fin 2) * 2048 + 1 * d.val = d.val
      omega
    | ⟨1, _⟩ =>
      show win0_2.index t (1 : Fin 2) * 4 + 1 * (j 1).val = win0_3.index t (1 : Fin 2) * 4 + 1 * (j 1).val
      omega

/-- An index of the output array is in point t's block iff each coordinate is in the block's range on its axis. -/
theorem mem_blk (t : Fin cfg0.N) (i : S32768x4.Idx) :
    i ∈ ((cfg0.win 3).blk t).view.set ↔ ∀ a : Fin 2, win0_3.index t a * S2048x4.size a ≤ (i a).val ∧ (i a).val < win0_3.index t a * S2048x4.size a + S2048x4.size a := by
  show i ∈ ((View.whole main_v2).slice (win0_3.rect t)).set ↔ _
  rw [View.set_slice_whole, Rect.mem_set_unit]
  exact Iff.rfl

/-- The sixteen blocks cover the output array: row r is in block r / 2048. -/
theorem covered (i : S32768x4.Idx) : ∃ t : Fin cfg0.N, (cfg0.win 3).flush t = true ∧ i ∈ ((cfg0.win 3).blk t).view.set := by
  have hi0 : (i 0).val < 32768 := (i 0).isLt
  have hi1 : (i 1).val < 4 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 4 ≤ (i 1).val ∧ (i 1).val < win0_3.index t (1 : Fin 2) * 4 + 4
    omega

/-- The output array after the region. -/
theorem final (c : Dev nD) :
    (dats m 0 c).arrAt 3 cfg0.N = Gflat (V m c main_v0) (V m c main_arg1) (V m c main_v1) :=
  (dats m 0 c).arrAt_eq_of_cover 3 (Gflat (V m c main_v0) (V m c main_arg1) (V m c main_v1))
    (fun t _ => flushed_eq m c t) covered

/-! ## The host operations around the region -/

/-- The flattened input, as the region finds it. -/
theorem V_flat (c : Dev nD) : (V m c main_v0 : S32768x2048.Idx → EReal)
    = shapeCast S32768x2048 (m ((c : Thread nD τ).loc main_arg0)) shapeCasts_S4x8192x2048_S32768x2048 := by
  show StableHlo.after hostOps0 (fun b => m (c, b)) (Proc.devRef .tc main_v0) = _
  after_results
  rfl

/-- The transposed projection, as the region finds it. -/
theorem V_transposed (c : Dev nD) : (V m c main_v1 : S2048x4.Idx → EReal)
    = transpose S2048x4 [1, 0] (m ((c : Thread nD τ).loc main_arg2)) transposes_S4x2048_S2048x4_1_0 := by
  show StableHlo.after hostOps0 (fun b => m (c, b)) (Proc.devRef .tc main_v1) = _
  after_results

/-- The program's result: the output array with its rows split back into (b, s). -/
theorem tail_eq (c : Dev nD) :
    Pipeline.afterTail₀ cfgs (dats m) 0 (V0 m) [hostOps1] c main_v3
      = shapeCast S4x8192x4 ((dats m 0 c).arrAt 3 cfg0.N) shapeCasts_S32768x4_S4x8192x4 := by
  unfold Pipeline.afterTail₀
  show StableHlo.after hostOps1 _ (Proc.devRef .tc main_v3) = _
  after_results
  rw [Pipeline.withArrays_arr spec0 launch0.win.arr_inj c _ _ 3]
  rfl

/-- Entry by entry, the program's result is G of the arguments. -/
theorem result_eq (c : Dev nD) :
    Pipeline.afterTail₀ cfgs (dats m) 0 (V0 m) [hostOps1] c main_v3
      = G (m ((c : Thread nD τ).loc main_arg0)) (m ((c : Thread nD τ).loc main_arg1)) (m ((c : Thread nD τ).loc main_arg2)) := by
  rw [tail_eq, final, V_flat, V_transposed, V_main_arg1]
  funext i
  obtain ⟨b, s, e, rfl⟩ : ∃ (b : Fin 4) (s : Fin 8192) (e : Fin 4), i = ix3 b s e := ⟨i 0, i 1, i 2, eq_ix3 i⟩
  have hlt : b.val * 8192 + s.val < 32768 := by have := b.isLt; have := s.isLt; omega
  rw [G_ix3, Cert.LibMergeSplit.split_apply _ shapeCasts_S32768x4_S4x8192x4 b s e hlt]
  show logit _ _ _ = logit _ _ _
  refine congr (congr (congrArg logit (funext fun d => ?_)) rfl) (funext fun d => ?_)
  · exact Cert.LibMergeSplit.merge_apply _ shapeCasts_S4x8192x2048_S32768x2048 b s d hlt
  · exact transpose_ix2_apply _ transposes_S4x2048_S2048x4_1_0 d e

/-! ## The run -/

/-- Every weakly fair execution of the kernel program terminates with its result at G of the arguments and the
    arguments unchanged. -/
theorem run : θ_run defs (onTc (τ := τ) (main (F := Ideal))) ⟨m, fun _ => 0, ρ⟩ fun r => ∀ c : Dev nD,
      r.2.mem ((c.tc : Thread nD τ).loc main_v3)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.RmsRoute.Kernel

end
-- ==== Proof.RefValue.lean ====
/-
  The reference computes the function G: read one operation at a time, its result at (b, s, e) is
  tanh((Σ_d (x_d / sqrt q) · w_d · v_d) · 3) with q the mean of the row's squares plus ε, and q is above zero, so the
  quotient by the root is the product with the reciprocal root.
-/
import proofs.«174033_j57784490000784_2_alg».proof.Proof.Gen.ReferenceIdeal.Read
import proofs.«174033_j57784490000784_2_alg».proof.Proof.Spec

noncomputable section

open scoped BigOperators

namespace Cert.RmsRoute.Ref

open Cert.ReferenceIdeal Cert.ReferenceIdeal.Read Idealize.ShloMosaic Idealize.ShloMosaic.ValueIdx Cert.RmsRoute

/-! ## The composed index maps, by coordinates -/

theorem lidx_eq (b : Fin 4) (s : Fin 8192) (e : Fin 4) (d : Fin 2048) : lidx_main_v13 (ix3 b s e) d = ix3 b s d :=
  funext fun a => Fin.ext (by match a with | ⟨0, _⟩ => rfl | ⟨1, _⟩ => rfl | ⟨2, _⟩ => rfl)

theorem ridx_eq (b : Fin 4) (s : Fin 8192) (e : Fin 4) (d : Fin 2048) : ridx_main_v13 (ix3 b s e) d = ix2 e d :=
  funext fun a => Fin.ext (by match a with | ⟨0, _⟩ => rfl | ⟨1, _⟩ => rfl)

theorem widx_eq (b : Fin 4) (s : Fin 8192) (d : Fin 2048) : idx_main_v10 (idx_main_v11 (ix3 b s d)) = ix1 d :=
  funext fun a => Fin.ext (by match a with | ⟨0, _⟩ => rfl)

theorem colidx_eq (b : Fin 4) (s : Fin 8192) (d : Fin 2048) : idx_main_v8 (ix3 b s d) = ix3 b s (0 : Fin 1) :=
  funext fun a => Fin.ext (by match a with | ⟨0, _⟩ => rfl | ⟨1, _⟩ => rfl | ⟨2, _⟩ => rfl)

theorem rowidx_eq (b : Fin 4) (s : Fin 8192) : idx_main_v2 (ix3 b s (0 : Fin 1)) = ix2 b s :=
  funext fun a => Fin.ext (by match a with | ⟨0, _⟩ => rfl | ⟨1, _⟩ => rfl)

theorem sumidx_eq (b : Fin 4) (s : Fin 8192) (k : Fin 2048) : idx_main_v1 (ix2 b s) k = ix3 b s k :=
  funext fun a => Fin.ext (by match a with | ⟨0, _⟩ => rfl | ⟨1, _⟩ => rfl | ⟨2, _⟩ => rfl)

/-! ## The stages -/

/-- The keepdims column of the reference at row (b, s): the mean of the row's squares plus ε. -/
theorem meanSq_stage (x0 : (⟨S4x8192x2048, .f32⟩ : BufTy).Contents (Elt Ideal)) (b : Fin 4) (s : Fin 8192) :
    val_main_v6 (F := Ideal) x0 (ix3 b s (0 : Fin 1)) = meanSq (fun k => x0 (ix3 b s k)) := by
  rw [val_main_v6_apply, val_main_v4_apply, val_main_v5_apply, val_main_cst_1_apply, val_main_v2_apply, val_main_v3_apply,
    val_main_cst_0_apply, rowidx_eq, val_main_v1_apply, val_main_cst_apply]
  simp only [sumidx_eq, val_main_v0_apply, Ideal.addf_def, Ideal.mulf_def, Ideal.hostDivf_def, Ideal.ofBits_def,
    Ideal.ofBits_zero_f32, zero_add]
  rfl

/-- The normalised, weighted entry (b, s, d): the division by the root as the product with the reciprocal root. -/
theorem normed_stage (x0 : (⟨S4x8192x2048, .f32⟩ : BufTy).Contents (Elt Ideal)) (x1 : (⟨S2048, .f32⟩ : BufTy).Contents (Elt Ideal))
    (b : Fin 4) (s : Fin 8192) (d : Fin 2048) :
    val_main_v12 (F := Ideal) x0 x1 (ix3 b s d)
      = x0 (ix3 b s d) * Ideal.rsqrt (meanSq (fun k => x0 (ix3 b s k))) * x1 (ix1 d) := by
  rw [val_main_v12_apply, val_main_v9_apply, val_main_v8_apply, val_main_v7_apply, colidx_eq, meanSq_stage,
    val_main_v11_apply, val_main_v10_apply, widx_eq]
  simp only [Ideal.mulf_def, Ideal.hostDivf_def, Ideal.hostUnary_sqrt_def]
  rw [← mul_rsqrt_eq_div_sqrt _ _ (meanSq_pos _)]

/-- The reference's result is G of its arguments. -/
theorem result_eq (x0 : (⟨S4x8192x2048, .f32⟩ : BufTy).Contents (Elt Ideal)) (x1 : (⟨S2048, .f32⟩ : BufTy).Contents (Elt Ideal))
    (x2 : (⟨S4x2048, .f32⟩ : BufTy).Contents (Elt Ideal)) :
    val_main_v16 (F := Ideal) x0 x1 x2 = G x0 x1 x2 := by
  funext i
  obtain ⟨b, s, e, rfl⟩ : ∃ (b : Fin 4) (s : Fin 8192) (e : Fin 4), i = ix3 b s e := ⟨i 0, i 1, i 2, eq_ix3 i⟩
  rw [G_ix3, val_main_v16_apply, val_main_v15_apply, val_main_v13_apply, val_main_v14_apply, val_main_cst_2_apply]
  simp only [lidx_eq, ridx_eq, normed_stage, Ideal.mulf_def, Ideal.hostUnary_tanh_def, Ideal.ofBits_def]
  rfl

end Cert.RmsRoute.Ref

end
-- ==== Proof.lean ====
/- The proof of `Cert.Claim` (proofs.«174033_j57784490000784_2_alg».proof.Defs).

   Both programs compute, at (b, s, e), the routed logit
       tanh ( ( Σ_d  x[b,s,d] · rsqrt( (Σ_k x[b,s,k]²) / 2048 + ε ) · w[d] · v[e,d] ) · 3 )
   (Proof/Spec.lean, the function G). The kernel program flattens the two leading axes, transposes the projection, and
   computes 2048 rows per grid point with the reciprocal root (Proof/Payload.lean: the stored block at an entry;
   Proof/KernelValue.lean: the sixteen blocks cover the output array, and the host's reshapes and transpose around
   the region are read at an index). The reference divides by the root instead; the mean of squares plus ε is above
   zero for every row, so the quotient is the product with the reciprocal root (Proof/RefValue.lean). Neither side
   needs the inputs to be finite. The frames of the two kernel programs are the generated ones; the reference's frame
   is its run with the result dropped; the idealization rewrote nothing, so `preserves` is trivial. -/
import proofs.«174033_j57784490000784_2_alg».proof.Defs
import proofs.«174033_j57784490000784_2_alg».proof.Proof.Gen.Kernel
import proofs.«174033_j57784490000784_2_alg».proof.Proof.Gen.Kernel.Frame
import proofs.«174033_j57784490000784_2_alg».proof.Proof.Gen.KernelIdeal
import proofs.«174033_j57784490000784_2_alg».proof.Proof.Gen.KernelIdeal.Frame
import proofs.«174033_j57784490000784_2_alg».proof.Proof.Gen.ReferenceIdeal
import proofs.«174033_j57784490000784_2_alg».proof.Proof.Gen.Pre_finite_inputs
import proofs.«174033_j57784490000784_2_alg».proof.Proof.Gen.ReferenceIdeal.Run
import proofs.«174033_j57784490000784_2_alg».proof.Proof.Gen.ReferenceIdeal.Read
import proofs.«174033_j57784490000784_2_alg».proof.Proof.KernelValue
import proofs.«174033_j57784490000784_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at G of the (agreeing) arguments. -/
theorem algebraic : Cert.algebraic_KernelIdeal_ReferenceIdeal := by
  intro m ρ m' ρ' _ hagree
  refine ⟨fun c => Cert.RmsRoute.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.RmsRoute.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RmsRoute.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
